-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x128 : Shape := ⟨2, ![64, 128]⟩
abbrev S128x2048 : Shape := ⟨2, ![128, 2048]⟩
abbrev S128x256 : Shape := ⟨2, ![128, 256]⟩
abbrev S128 : Shape := ⟨1, ![128]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128x2048 : S_.BroadcastsInDim S128x2048 (![] : Fin 0 → Fin S128x2048.rank)
  reducesTo_S128x2048_S_d0_1 : S128x2048.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x4096x2048 .f32) (main_arg1 : FVec F S64x128 .f32) (main_arg2 : FVec F S128x2048 .f32) (main_arg3 : FVec F S128x256 .f32) (main_arg4 : FVec F S128 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S4x4096x2048 : Shape := ⟨3, ![4, 4096, 2048]⟩
abbrev S64x128 : Shape := ⟨2, ![64, 128]⟩
abbrev S128x2048 : Shape := ⟨2, ![128, 2048]⟩
abbrev S128x256 : Shape := ⟨2, ![128, 256]⟩
abbrev S128 : Shape := ⟨1, ![128]⟩
abbrev S16384x2048 : Shape := ⟨2, ![16384, 2048]⟩
abbrev S2048x128 : Shape := ⟨2, ![2048, 128]⟩
abbrev S128x64 : Shape := ⟨2, ![128, 64]⟩
abbrev S128x128 : Shape := ⟨2, ![128, 128]⟩
abbrev S16384x128 : Shape := ⟨2, ![16384, 128]⟩
abbrev S1024x2048 : Shape := ⟨2, ![1024, 2048]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩
abbrev S1x128 : Shape := ⟨2, ![1, 128]⟩
abbrev S4x4096x128 : Shape := ⟨3, ![4, 4096, 128]⟩

abbrev nBuf : Space → Nat
  | .hbm => 19
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S64x128, .f32⟩
  | .hbm, ⟨2, _⟩ => ⟨S128x2048, .f32⟩
  | .hbm, ⟨3, _⟩ => ⟨S128x256, .f32⟩
  | .hbm, ⟨4, _⟩ => ⟨S128, .f32⟩
  | .hbm, ⟨5, _⟩ => ⟨S16384x2048, .f32⟩
  | .hbm, ⟨6, _⟩ => ⟨S2048x128, .f32⟩
  | .hbm, ⟨7, _⟩ => ⟨S2048x128, .bf16⟩
  | .hbm, ⟨8, _⟩ => ⟨S64x128, .bf16⟩
  | .hbm, ⟨9, _⟩ => ⟨S128x64, .f32⟩
  | .hbm, ⟨10, _⟩ => ⟨S128x64, .bf16⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .f32⟩
  | .hbm, ⟨16, _⟩ => ⟨S128x128, .bf16⟩
  | .hbm, ⟨17, _⟩ => ⟨S16384x128, .f32⟩
  | .hbm, ⟨18, _⟩ => ⟨S4x4096x128, .f32⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S64x128, .bf16⟩
  | .local _ .vmem, ⟨4, _⟩ => ⟨S128x64, .bf16⟩
  | .local _ .vmem, ⟨5, _⟩ => ⟨S128x128, .bf16⟩
  | .local _ .vmem, ⟨6, _⟩ => ⟨S128x128, .bf16⟩
  | .local _ .vmem, ⟨7, _⟩ => ⟨S128, .f32⟩
  | .local _ .vmem, ⟨8, _⟩ => ⟨S1024x128, .f32⟩
  | .local _ .vmem, ⟨9, _⟩ => ⟨S1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x2048_S16384x2048 : S4x4096x2048.ShapeCasts S16384x2048
  transposes_S128x2048_S2048x128_1_0 : S128x2048.Transposes [1, 0] S2048x128
  bitsLt_bf16_f32 : FTy.bits .bf16 < FTy.bits .f32
  transposes_S64x128_S128x64_1_0 : S64x128.Transposes [1, 0] S128x64
  slices_S128x256_S128x128_0_0 : S128x256.Slices ![0, 0] S128x128
  transposes_S128x128_S128x128_1_0 : S128x128.Transposes [1, 0] S128x128
  slices_S128x256_S128x128_0_128 : S128x256.Slices ![0, 128] S128x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reduces_S1024x64_S1024 : S1024x64.Reduces [1] S1024
  shapeCasts_S1024_S1024x1 : S1024.ShapeCasts S1024x1
  broadcasts_S1024x1_S1024x64 : S1024x1.Broadcasts S1024x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S16384x128_S4x4096x128 : S16384x128.ShapeCasts S4x4096x128
  dot_S1024x2048_S2048x128_S1024x128_1_0_0_1_n_n_wf : DotDims.WF S1024x2048 S2048x128 S1024x128 [1] [0] [0] [1] [] []
  dot_S1024x128_S128x64_S1024x64_1_0_0_1_n_n_wf : DotDims.WF S1024x128 S128x64 S1024x64 [1] [0] [0] [1] [] []
  dot_S1024x64_S64x128_S1024x128_1_0_0_1_n_n_wf : DotDims.WF S1024x64 S64x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .bf16 = 32 ∨ (Rect.block (s := S2048x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S16384x128.size a
  hwx0_7 : ∀ i : grid0.Coords, EltTy.bits .f32 = 32 ∨ (Rect.block (s := S16384x128) S1024x128.size (cc0_transform_7 i) (hinb0_7 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S64x128 : Shape := ⟨2, ![64, 128]⟩
abbrev S128x2048 : Shape := ⟨2, ![128, 2048]⟩
abbrev S128x256 : Shape := ⟨2, ![128, 256]⟩
abbrev S128 : Shape := ⟨1, ![128]⟩
abbrev S4x4096x128 : Shape := ⟨3, ![4, 4096, 128]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x4096x256 : Shape := ⟨3, ![4, 4096, 256]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x128, .f32⟩
  | .hbm, ⟨2, _⟩ => ⟨S128x2048, .f32⟩
  | .hbm, ⟨3, _⟩ => ⟨S128x256, .f32⟩
  | .hbm, ⟨4, _⟩ => ⟨S128, .f32⟩
  | .hbm, ⟨5, _⟩ => ⟨S4x4096x128, .f32⟩
  | .hbm, ⟨6, _⟩ => ⟨S4x4096x64, .f32⟩
  | .hbm, ⟨7, _⟩ => ⟨S_, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096x1, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x64, .f32⟩
  | .hbm, ⟨20, _⟩ => ⟨S4x4096x64, .f32⟩
  | .hbm, ⟨21, _⟩ => ⟨S4x4096x128, .f32⟩
  | .hbm, ⟨22, _⟩ => ⟨S4x4096x256, .f32⟩
  | .hbm, ⟨23, _⟩ => ⟨S4x4096x128, .f32⟩
  | .hbm, ⟨24, _⟩ => ⟨S1x1x128, .f32⟩
  | .hbm, ⟨25, _⟩ => ⟨S4x4096x128, .f32⟩
  | .hbm, ⟨26, _⟩ => ⟨S4x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x64_0_1_2 : S4x4096x1.BroadcastsInDim S4x4096x64 (![0, 1, 2] : Fin 3 → Fin S4x4096x64.rank)
  concatenates_S4x4096x128_S4x4096x128_S4x4096x256_d2 : Shape.Concatenates [S4x4096x128, S4x4096x128] S4x4096x256 2
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  dot_S4x4096x2048_S128x2048_S4x4096x128_2_1_01_0_n_n_wf : DotDims.WF S4x4096x2048 S128x2048 S4x4096x128 [2] [1] [0, 1] [0] [] []
  dot_S4x4096x128_S64x128_S4x4096x64_2_1_01_0_n_n_wf : DotDims.WF S4x4096x128 S64x128 S4x4096x64 [2] [1] [0, 1] [0] [] []
  dot_S4x4096x64_S64x128_S4x4096x128_2_0_01_1_n_n_wf : DotDims.WF S4x4096x64 S64x128 S4x4096x128 [2] [0] [0, 1] [1] [] []
  dot_S4x4096x256_S128x256_S4x4096x128_2_1_01_0_n_n_wf : DotDims.WF S4x4096x256 S128x256 S4x4096x128 [2] [1] [0, 1] [0] [] []

variable [Facts₀]

def dot_S4x4096x2048_S128x2048_S4x4096x128_2_1_01_0_n_n : DotDims S4x4096x2048 S128x2048 S4x4096x128 where
  lhsContracting := [2]
  rhsContracting := [1]
  lhsNonContracting := [0, 1]
  rhsNonContracting := [0]
  lhsBatch := []
  rhsBatch := []
  wf := dot_S4x4096x2048_S128x2048_S4x4096x128_2_1_01_0_n_n_wf
def dot_S4x4096x128_S64x128_S4x4096x64_2_1_01_0_n_n : DotDims S4x4096x128 S64x128 S4x4096x64 where
  lhsContracting := [2]
  rhsContracting := [1]
  lhsNonContracting := [0, 1]
  rhsNonContracting := [0]
  lhsBatch := []
  rhsBatch := []
  wf := dot_S4x4096x128_S64x128_S4x4096x64_2_1_01_0_n_n_wf
def dot_S4x4096x64_S64x128_S4x4096x128_2_0_01_1_n_n : DotDims S4x4096x64 S64x128 S4x4096x128 where
  lhsContracting := [2]
  rhsContracting := [0]
  lhsNonContracting := [0, 1]
  rhsNonContracting := [1]
  lhsBatch := []
  rhsBatch := []
  wf := dot_S4x4096x64_S64x128_S4x4096x128_2_0_01_1_n_n_wf
def dot_S4x4096x256_S128x256_S4x4096x128_2_1_01_0_n_n : DotDims S4x4096x256 S128x256 S4x4096x128 where
  lhsContracting := [2]
  rhsContracting := [1]
  lhsNonContracting := [0, 1]
  rhsNonContracting := [0]
  lhsBatch := []
  rhsBatch := []
  wf := dot_S4x4096x256_S128x256_S4x4096x128_2_1_01_0_n_n_wf

class Facts : Prop extends Facts₀ where

variable [Facts]
-- ==== Proof.Spec.lean ====
/-
  A retrieval head over a bank of 64 memory rows, one input row at a time, on the extended reals.

  From an input row `x` (2048 entries) the head forms a projection `xp h = Σ_d x d · A d h` (128 entries), a score
  against every memory row `s j = Σ_h xp h · B h j` (64 entries), the softmax weights of the scores taken with the
  row's maximum subtracted, `w j = exp (s j − max s) / Σ_k exp (s k − max s)`, the retrieved row
  `rt h = Σ_j w j · M j h`, and the output `(Σ_h xp h · C₁ h q + Σ_h rt h · C₂ h q) + b q`.

  Nothing here is assumed finite: every equation below holds for all extended reals, since it only regroups a finite
  sum (addition on the extended reals is commutative and associative) or compares a maximum with its own lower bound.
-/
import Idealize.ShloMosaic.PureOps.Ideal
import Idealize.ShloMosaic.Lib.ValueIdx
import Mathlib.Algebra.BigOperators.Fin
import Mathlib.Data.Finset.Fold

noncomputable section

namespace Cert.MemoryHead

open Idealize.ShloMosaic Idealize.ShloMosaic.ValueIdx

/-- The single-precision word of minus infinity, as the extended real it denotes. It is never evaluated: both programs
    start their row maximum from this same word. -/
abbrev negInf : EReal := Ideal.ofBits .f32 0xFF800000#32

/-- The projection of an input row: entry `h` is the sum over the model axis of `x d · A d h`. -/
def proj (x : Fin 2048 → EReal) (A : Fin 2048 → Fin 128 → EReal) (h : Fin 128) : EReal :=
  ∑ d : Fin 2048, x d * A d h

/-- The score of a projected row against memory row `j`. -/
def score (xp : Fin 128 → EReal) (B : Fin 128 → Fin 64 → EReal) (j : Fin 64) : EReal :=
  ∑ h : Fin 128, xp h * B h j

/-- The largest of the 64 scores, folded from minus infinity. -/
def rowMax (s : Fin 64 → EReal) : EReal := (Finset.univ : Finset (Fin 64)).fold max negInf s

/-- The exponential of a score less the row's maximum. -/
def expd (s : Fin 64 → EReal) (j : Fin 64) : EReal := Ideal.exp (s j - rowMax s)

/-- The softmax weight of memory row `j`: its shifted exponential over the sum of all 64. -/
def weight (s : Fin 64 → EReal) (j : Fin 64) : EReal := Ideal.div (expd s j) (∑ k : Fin 64, expd s k)

/-- The retrieved row: the memory rows averaged with the weights. -/
def retr (w : Fin 64 → EReal) (M : Fin 64 → Fin 128 → EReal) (h : Fin 128) : EReal :=
  ∑ j : Fin 64, w j * M j h

/-- The head's output at column `q`: the projection through `C₁` plus the retrieved row through `C₂`, plus the bias. -/
def row (x : Fin 2048 → EReal) (A : Fin 2048 → Fin 128 → EReal) (B : Fin 128 → Fin 64 → EReal)
    (M : Fin 64 → Fin 128 → EReal) (C₁ C₂ : Fin 128 → Fin 128 → EReal) (b : Fin 128 → EReal) (q : Fin 128) : EReal :=
  (∑ h : Fin 128, proj x A h * C₁ h q
    + ∑ h : Fin 128, retr (weight (score (proj x A) B)) M h * C₂ h q) + b q

/-- Column `h` of the first half of a 256-column matrix. -/
def lo (h : Fin 128) : Fin 256 := ⟨h.val, by have := h.isLt; omega⟩
/-- Column `h` of the second half. -/
def hi (h : Fin 128) : Fin 256 := ⟨128 + h.val, by have := h.isLt; omega⟩

/-- A maximum folded from minus infinity is at least minus infinity, so taking the maximum with minus infinity once
    more changes nothing. -/
theorem max_negInf_rowMax (s : Fin 64 → EReal) : max negInf (rowMax s) = rowMax s :=
  max_eq_right ((Finset.le_fold_max _).mpr (Or.inl le_rfl))

/-- A sum over 256 columns is the sum over the first 128 plus the sum over the last 128. -/
theorem sum_halves (f : Fin 256 → EReal) :
    ∑ c : Fin 256, f c = ∑ h : Fin 128, f (lo h) + ∑ h : Fin 128, f (hi h) :=
  Fin.sum_univ_add (a := 128) (b := 128) f

/-! ## The head over the five argument arrays -/

section Arrays

variable (x0 : (⟨3, ![4, 4096, 2048]⟩ : Shape).Idx → EReal) (x1 : (⟨2, ![64, 128]⟩ : Shape).Idx → EReal)
  (x2 : (⟨2, ![128, 2048]⟩ : Shape).Idx → EReal) (x3 : (⟨2, ![128, 256]⟩ : Shape).Idx → EReal)
  (x4 : (⟨1, ![128]⟩ : Shape).Idx → EReal)

/-- Row `(b, s)` of the input. -/
def xrow (b : Fin 4) (s : Fin 4096) (d : Fin 2048) : EReal := x0 (ix3 b s d)
/-- The projection weights, from model coordinate `d` to head coordinate `h`. -/
def wA (d : Fin 2048) (h : Fin 128) : EReal := x2 (ix2 h d)
/-- The memory bank, from head coordinate `h` to memory row `j`. -/
def wB (h : Fin 128) (j : Fin 64) : EReal := x1 (ix2 j h)
/-- The memory bank, row `j`, head coordinate `h`. -/
def wM (j : Fin 64) (h : Fin 128) : EReal := x1 (ix2 j h)
/-- The output weights on the projection: the first half of the columns. -/
def wC1 (h : Fin 128) (q : Fin 128) : EReal := x3 (ix2 q (lo h))
/-- The output weights on the retrieved row: the second half of the columns. -/
def wC2 (h : Fin 128) (q : Fin 128) : EReal := x3 (ix2 q (hi h))
/-- The bias. -/
def wb (q : Fin 128) : EReal := x4 (ix1 q)

/-- THE RESULT both programs compute: at `(b, s, q)` the head's row function of input row `(b, s)`. -/
def headArr : (⟨3, ![4, 4096, 128]⟩ : Shape).Idx → EReal := fun i =>
  row (xrow x0 ⟨(i 0).val, (i 0).isLt⟩ ⟨(i 1).val, (i 1).isLt⟩) (wA x2) (wB x1) (wM x1) (wC1 x3) (wC2 x3) (wb x4)
    ⟨(i 2).val, (i 2).isLt⟩

theorem headArr_ix3 (b : Fin 4) (s : Fin 4096) (q : Fin 128) :
    headArr x0 x1 x2 x3 x4 (ix3 b s q) = row (xrow x0 b s) (wA x2) (wB x1) (wM x1) (wC1 x3) (wC2 x3) (wb x4) q := rfl

end Arrays

end Cert.MemoryHead

end
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.Payload.lean ====
/-
  What the kernel's body computes for one block of 1024 input rows, read at row `p` and column `q` of the block: the
  head's row function of row `p` of the input block, with the weight blocks read as the body reads them (each already
  laid out with its contracted axis first). The body is restated as a chain of named stages — the projection, the
  scores, the row maximum spread back over the scores, the shifted exponentials, the weights, the retrieved rows, the
  output — and each stage is read at an entry: a product into the zero accumulator is the sum over the shared axis, a
  reduction over the last axis kept as a unit column and broadcast again is constant along the row, and a change of
  float format is the identity on the extended reals.
-/
import proofs.«125624_j19258633356050_2_alg».proof.Proof.Gen.KernelIdeal.Skeleton
import proofs.«125624_j19258633356050_2_alg».proof.Proof.Spec
import proofs.«125624_j19258633356050_2_alg».proof.Proof.LibDense
import proofs.«125624_j19258633356050_2_alg».proof.Proof.LibColumn
import proofs.«125624_j19258633356050_2_alg».proof.Proof.LibKeepdims

noncomputable section

namespace Cert.MemoryHead.Body

open Cert.KernelIdeal Cert.KernelIdeal.Gen Idealize.ShloMosaic Idealize.ShloMosaic.ValueIdx Cert.MemoryHead

/-! ## The stages -/

/-- The projected block: the input block times the projection weights. -/
def xproj (v0 : FVec Ideal S1024x2048 .f32) (v3 : FVec Ideal S2048x128 .bf16) : FVec Ideal S1024x128 .f32 :=
  matmul dot_S1024x2048_S2048x128_S1024x128_1_0_0_1_n_n none
    (truncf .bf16 (shapeCast S1024x2048 v0 shapeCasts_S1024x2048_S1024x2048) bitsLt_bf16_f32)
    (shapeCast S2048x128 v3 shapeCasts_S2048x128_S2048x128) (constant S1024x128 .f32 0x00000000#32)

/-- The scores of every row of the block against the 64 memory rows. -/
def scores (xp : FVec Ideal S1024x128 .f32) (v7 : FVec Ideal S128x64 .bf16) : FVec Ideal S1024x64 .f32 :=
  matmul dot_S1024x128_S128x64_S1024x64_1_0_0_1_n_n none (truncf .bf16 xp bitsLt_bf16_f32)
    (shapeCast S128x64 v7 shapeCasts_S128x64_S128x64) (constant S1024x64 .f32 0x00000000#32)

/-- Each row's largest score, spread over the row again. -/
def rmax (sc : FVec Ideal S1024x64 .f32) : FVec Ideal S1024x64 .f32 :=
  broadcastTo S1024x64
    (shapeCast S1024x1 (multiReduction .maximumf [1] S1024 sc 0xFF800000#32 reduces_S1024x64_S1024 (.inl rfl) rfl)
      shapeCasts_S1024_S1024x1) broadcasts_S1024x1_S1024x64

/-- The exponentials of the scores less their row's maximum. -/
def ex (sc : FVec Ideal S1024x64 .f32) : FVec Ideal S1024x64 .f32 := exp (subf sc (rmax sc))

/-- Each entry over its row's sum. -/
def wts (e : FVec Ideal S1024x64 .f32) : FVec Ideal S1024x64 .f32 :=
  divf e (broadcastTo S1024x64
    (shapeCast S1024x1 (multiReduction .add [1] S1024 e 0x00000000#32 reduces_S1024x64_S1024 (.inl rfl) rfl)
      shapeCasts_S1024_S1024x1) broadcasts_S1024x1_S1024x64)

/-- The retrieved rows: the weights times the memory bank. -/
def retrv (w : FVec Ideal S1024x64 .f32) (v20 : FVec Ideal S64x128 .bf16) : FVec Ideal S1024x128 .f32 :=
  matmul dot_S1024x64_S64x128_S1024x128_1_0_0_1_n_n none (truncf .bf16 w bitsLt_bf16_f32)
    (shapeCast S64x128 v20 shapeCasts_S64x128_S64x128) (constant S1024x128 .f32 0x00000000#32)

/-- The output block: the projection and the retrieved rows each through its half of the output weights, plus the
    bias row. -/
def outp (xp rt : FVec Ideal S1024x128 .f32) (v23 v25 : FVec Ideal S128x128 .bf16) (v31 : FVec Ideal S128 .f32) :
    FVec Ideal S1024x128 .f32 :=
  addf
    (addf
      (matmul dot_S1024x128_S128x128_S1024x128_1_0_0_1_n_n none (truncf .bf16 xp bitsLt_bf16_f32)
        (shapeCast S128x128 v23 shapeCasts_S128x128_S128x128) (constant S1024x128 .f32 0x00000000#32))
      (matmul dot_S1024x128_S128x128_S1024x128_1_0_0_1_n_n none (truncf .bf16 rt bitsLt_bf16_f32)
        (shapeCast S128x128 v25 shapeCasts_S128x128_S128x128) (constant S1024x128 .f32 0x00000000#32)))
    (broadcastTo S1024x128 (shapeCast S1x128 v31 shapeCasts_S128_S1x128) broadcasts_S1x128_S1024x128)

variable (v0 : FVec Ideal S1024x2048 .f32) (v3 : FVec Ideal S2048x128 .bf16) (v7 : FVec Ideal S128x64 .bf16)
  (v20 : FVec Ideal S64x128 .bf16) (v23 v25 : FVec Ideal S128x128 .bf16) (v31 : FVec Ideal S128 .f32)

/-- The body's arithmetic is the chain of the stages. -/
theorem pay_eq :
    k0_pay1 (F := Ideal) v0 v3 v7 v20 v23 v25 v31
      = outp (xproj v0 v3) (retrv (wts (ex (scores (xproj v0 v3) v7))) v20) v23 v25 v31 := rfl

/-! ## Each stage at an entry -/

/-- The projection at row `p`, head coordinate `h`. -/
theorem xproj_at (p : Fin 1024) (h : Fin 128) :
    xproj v0 v3 (ix2 p h) = proj (fun d => v0 (ix2 p d)) (fun d h => v3 (ix2 d h)) h := by
  unfold xproj
  refine (Cert.LibDense.matmul2d_apply dot_S1024x2048_S2048x128_S1024x128_1_0_0_1_n_n rfl rfl rfl rfl rfl rfl none _ _ p h).trans ?_
  rw [shapeCast_self, shapeCast_self]
  rfl

/-- The score of row `p` against memory row `j`. -/
theorem scores_at (xp : FVec Ideal S1024x128 .f32) (p : Fin 1024) (j : Fin 64) :
    scores xp v7 (ix2 p j) = score (fun h => xp (ix2 p h)) (fun h j => v7 (ix2 h j)) j := by
  unfold scores
  refine (Cert.LibDense.matmul2d_apply dot_S1024x128_S128x64_S1024x64_1_0_0_1_n_n rfl rfl rfl rfl rfl rfl none _ _ p j).trans ?_
  rw [shapeCast_self]
  rfl

/-- The row maximum, whatever the column it was spread to. -/
theorem rmax_at (sc : FVec Ideal S1024x64 .f32) (p : Fin 1024) (j : Fin 64) :
    rmax sc (ix2 p j) = rowMax (fun k => sc (ix2 p k)) := by
  unfold rmax
  refine (Cert.LibColumn.broadcastTo_a1_ab_apply _ _ p j).trans ?_
  refine (Cert.LibColumn.shapeCast_a_a1_apply _ _ p 0).trans ?_
  exact Cert.LibKeepdims.max_last2_apply sc _ _ _ _ p

/-- The shifted exponential. -/
theorem ex_at (sc : FVec Ideal S1024x64 .f32) (p : Fin 1024) (j : Fin 64) :
    ex sc (ix2 p j) = expd (fun k => sc (ix2 p k)) j := by
  unfold ex
  show Ideal.exp (sc (ix2 p j) - rmax sc (ix2 p j)) = _
  rw [rmax_at]
  rfl

/-- An entry over its row's sum. -/
theorem wts_at (e : FVec Ideal S1024x64 .f32) (p : Fin 1024) (j : Fin 64) :
    wts e (ix2 p j) = Ideal.div (e (ix2 p j)) (∑ k : Fin 64, e (ix2 p k)) := by
  unfold wts
  show Ideal.div (e (ix2 p j)) _ = _
  refine congrArg (Ideal.div (e (ix2 p j))) ?_
  refine (Cert.LibColumn.broadcastTo_a1_ab_apply _ _ p j).trans ?_
  refine (Cert.LibColumn.shapeCast_a_a1_apply _ _ p 0).trans ?_
  exact Cert.LibKeepdims.sum_last2_apply e _ _ _ _ p

/-- The retrieved row `p` at head coordinate `h`. -/
theorem retrv_at (w : FVec Ideal S1024x64 .f32) (p : Fin 1024) (h : Fin 128) :
    retrv w v20 (ix2 p h) = retr (fun j => w (ix2 p j)) (fun j h => v20 (ix2 j h)) h := by
  unfold retrv
  refine (Cert.LibDense.matmul2d_apply dot_S1024x64_S64x128_S1024x128_1_0_0_1_n_n rfl rfl rfl rfl rfl rfl none _ _ p h).trans ?_
  rw [shapeCast_self]
  rfl

/-- The output at row `p`, column `q`. -/
theorem outp_at (xp rt : FVec Ideal S1024x128 .f32) (p : Fin 1024) (q : Fin 128) :
    outp xp rt v23 v25 v31 (ix2 p q)
      = (∑ h : Fin 128, xp (ix2 p h) * v23 (ix2 h q) + ∑ h : Fin 128, rt (ix2 p h) * v25 (ix2 h q)) + v31 (ix1 q) := by
  unfold outp
  rw [addf_apply, addf_apply]
  refine congrArg₂ (· + ·) (congrArg₂ (· + ·) ?_ ?_) ?_
  · refine (Cert.LibDense.matmul2d_apply dot_S1024x128_S128x128_S1024x128_1_0_0_1_n_n rfl rfl rfl rfl rfl rfl none _ _ p q).trans ?_
    rw [shapeCast_self]
    rfl
  · refine (Cert.LibDense.matmul2d_apply dot_S1024x128_S128x128_S1024x128_1_0_0_1_n_n rfl rfl rfl rfl rfl rfl none _ _ p q).trans ?_
    rw [shapeCast_self]
    rfl
  · refine (broadcastTo_1b_ab_apply _ _ p q).trans ?_
    exact shapeCast_a_1a_apply _ _ 0 q

/-! ## The body at an entry -/

/-- THE BODY AT AN ENTRY of its output block: the head's row function of row `p` of the input block. -/
theorem pay_at (p : Fin 1024) (q : Fin 128) :
    k0_pay1 (F := Ideal) v0 v3 v7 v20 v23 v25 v31 (ix2 p q)
      = row (fun d => v0 (ix2 p d)) (fun d h => v3 (ix2 d h)) (fun h j => v7 (ix2 h j)) (fun j h => v20 (ix2 j h))
          (fun h q => v23 (ix2 h q)) (fun h q => v25 (ix2 h q)) (fun q => v31 (ix1 q)) q := by
  rw [pay_eq, outp_at]
  simp only [xproj_at, retrv_at, wts_at, ex_at, scores_at]
  rfl

end Cert.MemoryHead.Body

end
-- ==== Proof.LibLayout3.lean ====
/-
  Layout operations on rank-3 vectors read at an index written by coordinates, for any extents: two leading axes merged
  into one by a shape cast (and split again), a leading unit axis broadcast over many, and one row broadcast over a
  whole [c, a, b] box. Each is the general read-at-an-index lemma with its arithmetic side condition discharged.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b, c]` array cast to `[n, c]` (so `n = a · b`) reads, at row `r = p · b + q` and column `k`, the operand at
    `(p, q, k)`: both have row-major position `(p · b + q) · c + k`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c]` array cast to `[a, b, c]` reads, at `(p, q, k)`, the operand at row `r = p · b + q`, column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- A `[1, a, b]` array broadcast to `[c, a, b]` reads, at `(p, i, j)`, the operand's one slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1, b]` array broadcast to `[c, a, b]` reads, at `(p, i, j)`, the operand's one row at `j`. -/
theorem broadcastTo_11b_cab_apply {a b c : ℕ} (v : (⟨3, ![1, 1, b]⟩ : Shape).Idx → α)
    (h : (⟨3, ![1, 1, b]⟩ : Shape).Broadcasts ⟨3, ![c, a, b]⟩) (p : Fin c) (i : Fin a) (j : Fin b) :
    broadcastTo ⟨3, ![c, a, b]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Idealize.ShloMosaic.ValueIdx
-- ==== Proof.KernelArray.lean ====
/-
  The kernel's result array, as one function of the argument arrays.

  The program re-lays its arguments before the call (the input's two leading axes merged into 16384 rows; each weight
  array transposed so that its contracted axis comes first, the output weights cut into their two halves first), runs the
  body on 16 blocks of 1024 rows, and splits the 16384 result rows into [4, 4096] again afterwards. Block `t` of the
  input is rows `1024 t … 1024 t + 1023`; the weight blocks are the whole weight arrays at every point; block `t` of the
  result is what the body computes from them, and the 16 result blocks tile the result array. So the array after the
  call holds, at row `r`, the head's row function of row `r` of the merged input, and after the final split, at
  `(b, s)`, that of row `4096 b + s`, which is row `(b, s)` of the input.
-/
import proofs.«125624_j19258633356050_2_alg».proof.Proof.Gen.KernelIdeal.Frame
import proofs.«125624_j19258633356050_2_alg».proof.Proof.Payload
import proofs.«125624_j19258633356050_2_alg».proof.Proof.LibLayout3
import Idealize.ShloMosaic.Lib.StableHlo.Run
import Idealize.ShloMosaic.Lib.Pipeline.Value
import Idealize.ShloMosaic.Lib.ValueLayout
import Idealize.ShloMosaic.PureOps.Ideal

noncomputable section

namespace Cert.MemoryHead.Ker

open Cert.KernelIdeal Cert.KernelIdeal.Gen Idealize.ShloMosaic Idealize.ShloMosaic.TcCoe Idealize.SL.Sem
open Idealize.ShloMosaic.StableHlo Idealize.ShloMosaic.ValueIdx Cert.MemoryHead
open Idealize.ShloMosaic.Pipeline (Dat)

variable (m : (ℓ : Loc nD τ sig) → Buf (Elt Ideal) ℓ) (ρ : Dev nD → PrngReg)

/-! ## What the region finds in each staged array -/

/-- The input with its two leading axes merged. -/
theorem V0_eq (c : Dev nD) :
    (V m c main_v0 : S16384x2048.Idx → EReal)
      = shapeCast S16384x2048 (m ((c : Thread nD τ).loc main_arg0)) shapeCasts_S4x4096x2048_S16384x2048 := by
  show StableHlo.after hostOps0 (fun b => m (c, b)) (Proc.devRef .tc main_v0) = _
  after_results
  rfl

/-- The projection weights, transposed. -/
theorem V2_eq (c : Dev nD) :
    (V m c main_v2 : S2048x128.Idx → EReal)
      = truncf (F := Ideal) .bf16 (transpose S2048x128 [1, 0] (m ((c : Thread nD τ).loc main_arg2)) transposes_S128x2048_S2048x128_1_0) bitsLt_bf16_f32 := by
  show StableHlo.after hostOps0 (fun b => m (c, b)) (Proc.devRef .tc main_v2) = _
  after_results

/-- The memory bank. -/
theorem V3_eq (c : Dev nD) :
    (V m c main_v3 : S64x128.Idx → EReal) = truncf (F := Ideal) .bf16 (m ((c : Thread nD τ).loc main_arg1)) bitsLt_bf16_f32 := by
  show StableHlo.after hostOps0 (fun b => m (c, b)) (Proc.devRef .tc main_v3) = _
  after_results

/-- The memory bank, transposed. -/
theorem V5_eq (c : Dev nD) :
    (V m c main_v5 : S128x64.Idx → EReal)
      = truncf (F := Ideal) .bf16 (transpose S128x64 [1, 0] (m ((c : Thread nD τ).loc main_arg1)) transposes_S64x128_S128x64_1_0) bitsLt_bf16_f32 := by
  show StableHlo.after hostOps0 (fun b => m (c, b)) (Proc.devRef .tc main_v5) = _
  after_results

/-- The first half of the output weights' columns, transposed. -/
theorem V8_eq (c : Dev nD) :
    (V m c main_v8 : S128x128.Idx → EReal)
      = truncf (F := Ideal) .bf16 (transpose S128x128 [1, 0]
          (extractStridedSlice S128x128 ![0, 0] (m ((c : Thread nD τ).loc main_arg3)) slices_S128x256_S128x128_0_0)
          transposes_S128x128_S128x128_1_0) bitsLt_bf16_f32 := by
  show StableHlo.after hostOps0 (fun b => m (c, b)) (Proc.devRef .tc main_v8) = _
  after_results

/-- The second half, transposed. -/
theorem V11_eq (c : Dev nD) :
    (V m c main_v11 : S128x128.Idx → EReal)
      = truncf (F := Ideal) .bf16 (transpose S128x128 [1, 0]
          (extractStridedSlice S128x128 ![0, 128] (m ((c : Thread nD τ).loc main_arg3)) slices_S128x256_S128x128_0_128)
          transposes_S128x128_S128x128_1_0) bitsLt_bf16_f32 := by
  show StableHlo.after hostOps0 (fun b => m (c, b)) (Proc.devRef .tc main_v11) = _
  after_results

/-! ## The same, at an entry -/

theorem X_at (c : Dev nD) (r : Fin 16384) (d : Fin 2048) (b : Fin 4) (s : Fin 4096) (hr : r.val = b.val * 4096 + s.val) :
    (V m c main_v0 : S16384x2048.Idx → EReal) (ix2 r d)
      = (m ((c : Thread nD τ).loc main_arg0) : S4x4096x2048.Idx → EReal) (ix3 b s d) := by
  rw [V0_eq]
  exact shapeCast_abc_nc_apply _ _ r d b s hr

theorem A_at (c : Dev nD) (d : Fin 2048) (h : Fin 128) :
    (V m c main_v2 : S2048x128.Idx → EReal) (ix2 d h)
      = (m ((c : Thread nD τ).loc main_arg2) : S128x2048.Idx → EReal) (ix2 h d) := by
  rw [V2_eq]
  exact transpose_ix2_apply _ _ d h

theorem M_at (c : Dev nD) (j : Fin 64) (h : Fin 128) :
    (V m c main_v3 : S64x128.Idx → EReal) (ix2 j h)
      = (m ((c : Thread nD τ).loc main_arg1) : S64x128.Idx → EReal) (ix2 j h) := by
  rw [V3_eq]
  rfl

theorem B_at (c : Dev nD) (h : Fin 128) (j : Fin 64) :
    (V m c main_v5 : S128x64.Idx → EReal) (ix2 h j)
      = (m ((c : Thread nD τ).loc main_arg1) : S64x128.Idx → EReal) (ix2 j h) := by
  rw [V5_eq]
  exact transpose_ix2_apply _ _ h j

theorem C1_at (c : Dev nD) (h q : Fin 128) :
    (V m c main_v8 : S128x128.Idx → EReal) (ix2 h q)
      = (m ((c : Thread nD τ).loc main_arg3) : S128x256.Idx → EReal) (ix2 q (lo h)) := by
  rw [V8_eq]
  rw [truncf_apply]
  refine (transpose_ix2_apply _ _ h q).trans ?_
  exact slice2_axis1_apply 0 _ _ q h (lo h) (by show h.val = 0 + h.val; omega)

theorem C2_at (c : Dev nD) (h q : Fin 128) :
    (V m c main_v11 : S128x128.Idx → EReal) (ix2 h q)
      = (m ((c : Thread nD τ).loc main_arg3) : S128x256.Idx → EReal) (ix2 q (hi h)) := by
  rw [V11_eq]
  rw [truncf_apply]
  refine (transpose_ix2_apply _ _ h q).trans ?_
  exact slice2_axis1_apply 128 _ _ q h (hi h) rfl

/-! ## The blocks -/

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 16 points: the input's and the result's block row is the point, every
    other block index is zero. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 :=
  (by decide +kernel : ∀ t : Fin grid0.N, _)

/-- Block `t` of the input is rows `1024 t …` of the merged input. -/
theorem iblk0_at (c : Dev nD) (t : Fin cfg0.N) (p : Fin 1024) (d : Fin 2048) (r : Fin 16384)
    (hr : r.val = t.val * 1024 + p.val) :
    (iblk m c 0 t : FVec Ideal S1024x2048 .f32) (ix2 p d) = (V m c main_v0 : S16384x2048.Idx → EReal) (ix2 r d) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 2048 + 1 * d.val = d.val; rw [e1]; omega

/-- Every point's block of a weight array is the whole array. -/
theorem iblk1_eq (c : Dev nD) (t : Fin cfg0.N) : (iblk m c 1 t : FVec Ideal S2048x128 .bf16) = V m c main_v2 := by
  obtain ⟨-, -, -, -, e0, e1, -⟩ := idx_facts t
  funext y
  unfold iblk
  rw [View.read_apply]
  show V m c main_v2 _ = V m c main_v2 y
  congr 1
  funext a
  apply Fin.ext
  match a with
  | ⟨0, _⟩ => show win0_1.index t (0 : Fin 2) * 2048 + 1 * (y 0).val = (y 0).val; rw [e0]; omega
  | ⟨1, _⟩ => show win0_1.index t (1 : Fin 2) * 128 + 1 * (y 1).val = (y 1).val; rw [e1]; omega

theorem iblk2_eq (c : Dev nD) (t : Fin cfg0.N) : (iblk m c 2 t : FVec Ideal S64x128 .bf16) = V m c main_v3 := by
  obtain ⟨-, -, -, -, -, -, e0, e1, -⟩ := idx_facts t
  funext y
  unfold iblk
  rw [View.read_apply]
  show V m c main_v3 _ = V m c main_v3 y
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

theorem iblk3_eq (c : Dev nD) (t : Fin cfg0.N) : (iblk m c 3 t : FVec Ideal S128x64 .bf16) = V m c main_v5 := by
  obtain ⟨-, -, -, -, -, -, -, -, e0, e1, -⟩ := idx_facts t
  funext y
  unfold iblk
  rw [View.read_apply]
  show V m c main_v5 _ = V m c main_v5 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 64 + 1 * (y 1).val = (y 1).val; rw [e1]; omega

theorem iblk4_eq (c : Dev nD) (t : Fin cfg0.N) : (iblk m c 4 t : FVec Ideal S128x128 .bf16) = V m c main_v8 := by
  obtain ⟨-, -, -, -, -, -, -, -, -, -, e0, e1, -⟩ := idx_facts t
  funext y
  unfold iblk
  rw [View.read_apply]
  show V m c main_v8 _ = V m c main_v8 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem iblk5_eq (c : Dev nD) (t : Fin cfg0.N) : (iblk m c 5 t : FVec Ideal S128x128 .bf16) = V m c main_v11 := by
  obtain ⟨-, -, -, -, -, -, -, -, -, -, -, -, e0, e1, -⟩ := idx_facts t
  funext y
  unfold iblk
  rw [View.read_apply]
  show V m c main_v11 _ = V m c main_v11 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem iblk6_eq (c : Dev nD) (t : Fin cfg0.N) : (iblk m c 6 t : FVec Ideal S128 .f32) = V m c main_arg4 := by
  obtain ⟨-, -, -, -, -, -, -, -, -, -, -, -, -, -, e0⟩ := idx_facts t
  funext y
  unfold iblk
  rw [View.read_apply]
  show V m c main_arg4 _ = V m c main_arg4 y
  congr 1
  funext a
  apply Fin.ext
  match a with
  | ⟨0, _⟩ => show win0_6.index t (0 : Fin 1) * 128 + 1 * (y 0).val = (y 0).val; rw [e0]; omega

/-! ## The result array after the call -/

/-- The result of the call as one function of the arrays the region finds: at row `r`, column `q`, the head's row
    function of row `r` of the merged input. -/
def G7 (X : S16384x2048.Idx → EReal) (A : S2048x128.Idx → EReal) (B : S128x64.Idx → EReal) (M : S64x128.Idx → EReal)
    (C₁ C₂ : S128x128.Idx → EReal) (b : S128.Idx → EReal) : S16384x128.Idx → EReal := fun i =>
  row (fun d => X (ix2 (⟨(i 0).val, (i 0).isLt⟩ : Fin 16384) d)) (fun d h => A (ix2 d h)) (fun h j => B (ix2 h j))
    (fun j h => M (ix2 j h)) (fun h q => C₁ (ix2 h q)) (fun h q => C₂ (ix2 h q)) (fun q => b (ix1 q))
    (⟨(i 1).val, (i 1).isLt⟩ : Fin 128)

theorem G7_at (X : S16384x2048.Idx → EReal) (A : S2048x128.Idx → EReal) (B : S128x64.Idx → EReal) (M : S64x128.Idx → EReal)
    (C₁ C₂ : S128x128.Idx → EReal) (b : S128.Idx → EReal) (i : S16384x128.Idx) (r : Fin 16384) (q : Fin 128)
    (h0 : (i 0).val = r.val) (h1 : (i 1).val = q.val) :
    G7 X A B M C₁ C₂ b i
      = row (fun d => X (ix2 r d)) (fun d h => A (ix2 d h)) (fun h j => B (ix2 h j)) (fun j h => M (ix2 j h))
          (fun h q => C₁ (ix2 h q)) (fun h q => C₂ (ix2 h q)) (fun q => b (ix1 q)) q := by
  have hr : (⟨(i 0).val, (i 0).isLt⟩ : Fin 16384) = r := Fin.ext h0
  have hq : (⟨(i 1).val, (i 1).isLt⟩ : Fin 128) = q := Fin.ext h1
  unfold G7
  rw [hr, hq]

/-- At one entry of one block: what the body computes from a block of rows of `X` and the whole weight arrays is the
    result function at the entry's place in the array. -/
theorem point_eq (X : S16384x2048.Idx → EReal) (A : FVec Ideal S2048x128 .bf16) (B : FVec Ideal S128x64 .bf16)
    (M : FVec Ideal S64x128 .bf16) (C₁ C₂ : FVec Ideal S128x128 .bf16) (b : FVec Ideal S128 .f32)
    (v0 : FVec Ideal S1024x2048 .f32) (r : Fin 16384) (p : Fin 1024) (q : Fin 128) (i : S16384x128.Idx)
    (hv : ∀ d : Fin 2048, v0 (ix2 p d) = X (ix2 r d)) (h0 : (i 0).val = r.val) (h1 : (i 1).val = q.val) :
    k0_pay1 (F := Ideal) v0 A B M C₁ C₂ b (ix2 p q) = G7 X A B M C₁ C₂ b i := by
  rw [Body.pay_at, G7_at X A B M C₁ C₂ b i r q h0 h1]
  exact congrArg (fun f => row f _ _ _ _ _ _ q) (funext hv)

/-- The result function of the arrays as the region finds them. -/
abbrev G7V (c : Dev nD) : S16384x128.Idx → EReal :=
  G7 (V m c main_v0) (V m c main_v2) (V m c main_v5) (V m c main_v3) (V m c main_v8) (V m c main_v11) (V m c main_arg4)

/-- WHAT POINT `t` WRITES BACK is block `t` of the result function. -/
theorem flushed_eq (c : Dev nD) (t : Fin cfg0.N) :
    (dats m 0 c).flushed 7 t = ((cfg0.win 7).blk t).view.read (Elt Ideal) (G7V m c) := by
  show (cfg0.win 7).cut (grid0.coords t) ((dats m 0 c).after 7 t) = _
  rw [after0_7]
  unfold out0_7
  rw [View.canon_unit_zero hz2]
  simp only [View.ld_unit_zero (S := S1024x2048) hz2, View.ld_unit_zero (S := S2048x128) hz2,
    View.ld_unit_zero (S := S128x64) hz2, View.ld_unit_zero (S := S64x128) hz2,
    View.ld_unit_zero (S := S128x128) hz2, View.ld_unit_zero (S := S128) hz1]
  rw [iblk1_eq, iblk2_eq, iblk3_eq, iblk4_eq, iblk5_eq, iblk6_eq]
  obtain ⟨-, -, e0, e1, -⟩ := idx_facts t
  have hN : cfg0.N = 16 := N_0
  have ht : t.val < 16 := hN ▸ t.isLt
  funext j
  obtain ⟨p, q, rfl⟩ : ∃ (p : Fin 1024) (q : Fin 128), j = ix2 p q := ⟨j 0, j 1, eq_ix2 j⟩
  rw [View.read_apply]
  have hp : p.val < 1024 := p.isLt
  refine point_eq (V m c main_v0) (V m c main_v2) (V m c main_v5) (V m c main_v3) (V m c main_v8) (V m c main_v11)
    (V m c main_arg4) (iblk m c 0 t) ⟨t.val * 1024 + p.val, by omega⟩ p q _
    (fun d => iblk0_at m c t p d _ rfl) ?_ ?_
  · show win0_7.index t (0 : Fin 2) * 1024 + 1 * p.val = t.val * 1024 + p.val
    rw [e0]; omega
  · show win0_7.index t (1 : Fin 2) * 128 + 1 * q.val = q.val
    rw [e1]; omega

/-- An index of the result array is in point `t`'s block iff each coordinate is in the block's range on its axis. -/
theorem mem_blk7 (t : Fin cfg0.N) (i : S16384x128.Idx) :
    i ∈ ((cfg0.win 7).blk t).view.set
      ↔ ∀ a : Fin 2, win0_7.index t a * S1024x128.size a ≤ (i a).val
          ∧ (i a).val < win0_7.index t a * S1024x128.size a + S1024x128.size a := by
  show i ∈ ((View.whole main_v12).slice (win0_7.rect t)).set ↔ _
  rw [View.set_slice_whole, Rect.mem_set_unit]
  exact Iff.rfl

/-- Row `r` of the result array is in the block of point `r / 1024`: the 16 blocks tile the array. -/
theorem cover7 (i : S16384x128.Idx) :
    ∃ t : Fin cfg0.N, (cfg0.win 7).flush t = true ∧ i ∈ ((cfg0.win 7).blk t).view.set := by
  have hi0 : (i 0).val < 16384 := (i 0).isLt
  have hi1 : (i 1).val < 128 := (i 1).isLt
  have hN : cfg0.N = 16 := N_0
  obtain ⟨t, ht⟩ : ∃ t : Fin cfg0.N, t.val = (i 0).val / 1024 := ⟨⟨(i 0).val / 1024, by omega⟩, rfl⟩
  obtain ⟨-, -, e0, e1, -⟩ := idx_facts t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    rw [e0, ht]; omega
  | ⟨1, _⟩ =>
    show win0_7.index t (1 : Fin 2) * 128 ≤ (i 1).val ∧ (i 1).val < win0_7.index t (1 : Fin 2) * 128 + 128
    rw [e1]; omega

/-- THE RESULT ARRAY AFTER THE CALL is the result function. -/
theorem final7 (c : Dev nD) : (dats m 0 c).arrAt 7 cfg0.N = G7V m c :=
  (dats m 0 c).arrAt_eq_of_cover 7 (G7V m c) (fun t _ => flushed_eq m c t) cover7

/-! ## After the call: the rows split into [4, 4096] again -/

/-- The program's result buffer after the run: the result array of the call, re-laid. -/
theorem tail_eq (c : Dev nD) :
    (Pipeline.afterTail₀ cfgs (dats m) 0 (V0 m) [hostOps1] c main_v13 : S4x4096x128.Idx → EReal)
      = shapeCast S4x4096x128 (G7V m c) shapeCasts_S16384x128_S4x4096x128 := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = G7V m c :=
    (Pipeline.withArrays_arr spec0 launch0.win.arr_inj c _ _ 7).trans (final7 m c)
  rw [hw]
  rfl

/-- THE KERNEL PROGRAM'S RESULT is the head over the argument arrays. -/
theorem kernel_eq (c : Dev nD) :
    (Pipeline.afterTail₀ cfgs (dats m) 0 (V0 m) [hostOps1] c main_v13 : S4x4096x128.Idx → EReal)
      = headArr (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq]
  funext i
  obtain ⟨b, s, q, rfl⟩ : ∃ (b : Fin 4) (s : Fin 4096) (q : Fin 128), i = ix3 b s q := ⟨i 0, i 1, i 2, eq_ix3 i⟩
  have hb : b.val < 4 := b.isLt
  have hs : s.val < 4096 := s.isLt
  rw [headArr_ix3]
  refine (shapeCast_nc_abc_apply _ _ b s q (⟨b.val * 4096 + s.val, by omega⟩ : Fin 16384) rfl).trans ?_
  refine (G7_at _ _ _ _ _ _ _ _ ⟨b.val * 4096 + s.val, by omega⟩ q rfl rfl).trans ?_
  unfold row proj score retr xrow wA wB wM wC1 wC2 wb
  have hX : ∀ d : Fin 2048, (V m c main_v0 : S16384x2048.Idx → EReal) (ix2 (⟨b.val * 4096 + s.val, by omega⟩ : Fin 16384) d)
      = (m ((c : Thread nD τ).loc main_arg0) : S4x4096x2048.Idx → EReal) (ix3 b s d) := fun d => X_at m c _ d b s rfl
  simp only [hX, A_at m c, B_at m c, M_at m c, C1_at m c, C2_at m c, V_main_arg4 m c]

/-! ## The run -/

/-- Every weakly fair execution of the kernel program ends with its result buffer at the head over the argument arrays
    and the arguments as they were. -/
theorem run : θ_run defs (onTc (τ := τ) (main (F := Ideal))) ⟨m, fun _ => 0, ρ⟩ fun r => ∀ c : Dev nD,
      r.2.mem ((c.tc : Thread nD τ).loc main_v13)
        = headArr (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (kernel_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 6).trans (((dats m 0 c).arrAt_in 6 rfl _).trans ((A_eq m c 6).trans (V_main_arg4 m c)))⟩)
    (run_main m ρ)

end Cert.MemoryHead.Ker

end
-- ==== Proof.RefRow.lean ====
/-
  The reference program's result at batch `b`, position `s`, column `q` is the head's row function of row `(b, s)` of the
  input, with the weight arrays read as the reference reads them: the projection weights and the output weights by
  their second axis (the contracted one), the memory bank by its second axis for the scores and by its first for the
  retrieval. Each operation is read at an index; the one law used is that the sum over the 256 columns of the joined
  array `[projection | retrieved]` splits into the sum over its first 128 columns (the projection) and the sum over its
  last 128 (the retrieved row), and that the maximum with minus infinity of a maximum folded from minus infinity is
  that maximum.
-/
import proofs.«125624_j19258633356050_2_alg».proof.Proof.Gen.ReferenceIdeal.Read
import proofs.«125624_j19258633356050_2_alg».proof.Proof.Spec
import proofs.«125624_j19258633356050_2_alg».proof.Proof.LibKeepdims

noncomputable section

namespace Cert.MemoryHead.Ref

open Cert.ReferenceIdeal Cert.ReferenceIdeal.Gen Cert.ReferenceIdeal.Read Idealize.ShloMosaic Idealize.ShloMosaic.ValueIdx Cert.MemoryHead

variable (x0 : (⟨S4x4096x2048, .f32⟩ : BufTy).Contents (Elt Ideal)) (x1 : (⟨S64x128, .f32⟩ : BufTy).Contents (Elt Ideal))
  (x2 : (⟨S128x2048, .f32⟩ : BufTy).Contents (Elt Ideal)) (x3 : (⟨S128x256, .f32⟩ : BufTy).Contents (Elt Ideal))
  (x4 : (⟨S128, .f32⟩ : BufTy).Contents (Elt Ideal))

/-! ## The operand indices of the four contractions, by coordinates -/

theorem lidx0 (b : Fin 4) (s : Fin 4096) (h : Fin 128) (k : Fin 2048) : lidx_main_v0 (ix3 b s h) k = ix3 b s k :=
  funext fun a => by match a with | ⟨0, _⟩ => rfl | ⟨1, _⟩ => rfl | ⟨2, _⟩ => rfl
theorem ridx0 (b : Fin 4) (s : Fin 4096) (h : Fin 128) (k : Fin 2048) : ridx_main_v0 (ix3 b s h) k = ix2 h k :=
  funext fun a => by match a with | ⟨0, _⟩ => rfl | ⟨1, _⟩ => rfl
theorem lidx1 (b : Fin 4) (s : Fin 4096) (j : Fin 64) (k : Fin 128) : lidx_main_v1 (ix3 b s j) k = ix3 b s k :=
  funext fun a => by match a with | ⟨0, _⟩ => rfl | ⟨1, _⟩ => rfl | ⟨2, _⟩ => rfl
theorem ridx1 (b : Fin 4) (s : Fin 4096) (j : Fin 64) (k : Fin 128) : ridx_main_v1 (ix3 b s j) k = ix2 j k :=
  funext fun a => by match a with | ⟨0, _⟩ => rfl | ⟨1, _⟩ => rfl
theorem lidx13 (b : Fin 4) (s : Fin 4096) (h : Fin 128) (k : Fin 64) : lidx_main_v13 (ix3 b s h) k = ix3 b s k :=
  funext fun a => by match a with | ⟨0, _⟩ => rfl | ⟨1, _⟩ => rfl | ⟨2, _⟩ => rfl
theorem ridx13 (b : Fin 4) (s : Fin 4096) (h : Fin 128) (k : Fin 64) : ridx_main_v13 (ix3 b s h) k = ix2 k h :=
  funext fun a => by match a with | ⟨0, _⟩ => rfl | ⟨1, _⟩ => rfl
theorem lidx15 (b : Fin 4) (s : Fin 4096) (q : Fin 128) (k : Fin 256) : lidx_main_v15 (ix3 b s q) k = ix3 b s k :=
  funext fun a => by match a with | ⟨0, _⟩ => rfl | ⟨1, _⟩ => rfl | ⟨2, _⟩ => rfl
theorem ridx15 (b : Fin 4) (s : Fin 4096) (q : Fin 128) (k : Fin 256) : ridx_main_v15 (ix3 b s q) k = ix2 q k :=
  funext fun a => by match a with | ⟨0, _⟩ => rfl | ⟨1, _⟩ => rfl

/-! ## The stages, one at a time -/

/-- The projection. -/
theorem v0_at (b : Fin 4) (s : Fin 4096) (h : Fin 128) :
    val_main_v0 (F := Ideal) x0 x2 (ix3 b s h) = proj (xrow x0 b s) (wA x2) h := by
  rw [val_main_v0_apply]
  simp only [lidx0, ridx0]
  rfl

/-- The scores. -/
theorem v1_at (b : Fin 4) (s : Fin 4096) (j : Fin 64) :
    val_main_v1 (F := Ideal) x0 x1 x2 (ix3 b s j) = score (proj (xrow x0 b s) (wA x2)) (wB x1) j := by
  rw [val_main_v1_apply]
  simp only [lidx1, ridx1, v0_at]
  rfl

/-- The scores of row `(b, s)`, named. -/
def sc (b : Fin 4) (s : Fin 4096) : Fin 64 → EReal := score (proj (xrow x0 b s) (wA x2)) (wB x1)

theorem v1_at' (b : Fin 4) (s : Fin 4096) (j : Fin 64) :
    val_main_v1 (F := Ideal) x0 x1 x2 (ix3 b s j) = sc x0 x1 x2 b s j := v1_at x0 x1 x2 b s j

/-- The row maximum: the reduction over the last axis, from minus infinity, is the fold of `max` over the 64 scores. -/
theorem v2_at (b : Fin 4) (s : Fin 4096) :
    val_main_v2 (F := Ideal) x0 x1 x2 (ix2 b s) = rowMax (sc x0 x1 x2 b s) := by
  unfold val_main_v2
  have h : S4x4096x64.Reduces [2] S4x4096 := by decide
  rw [Host.reduce_eq_fold_single (FloatOps.maximumf (F := Ideal) (φ := .f32)) _ _ reducesTo_S4x4096x64_S4x4096_d2 h h_S_]
  have hf : (val_main_v1 (F := Ideal) x0 x1 x2 ∘ h.lift (ix2 b s)) = fun k : Fin 64 => sc x0 x1 x2 b s k :=
    funext fun k => by
      show val_main_v1 (F := Ideal) x0 x1 x2 (h.lift (ix2 b s) k) = _
      rw [Cert.LibKeepdims.lift_last3 h b s k]
      exact v1_at' x0 x1 x2 b s _
  rw [hf]
  rfl

/-- The maximum with the splat of minus infinity changes nothing. -/
theorem v4_at (b : Fin 4) (s : Fin 4096) :
    val_main_v4 (F := Ideal) x0 x1 x2 (ix2 b s) = rowMax (sc x0 x1 x2 b s) := by
  rw [val_main_v4_apply, val_main_v3_apply, v2_at]
  exact max_negInf_rowMax _

theorem idx56 (b : Fin 4) (s : Fin 4096) (j : Fin 64) : idx_main_v5 (idx_main_v6 (ix3 b s j)) = ix2 b s :=
  funext fun a => by match a with | ⟨0, _⟩ => rfl | ⟨1, _⟩ => rfl

/-- The maximum kept as a unit axis and spread over the 64 scores again. -/
theorem v6_at (b : Fin 4) (s : Fin 4096) (j : Fin 64) :
    val_main_v6 (F := Ideal) x0 x1 x2 (ix3 b s j) = rowMax (sc x0 x1 x2 b s) := by
  rw [val_main_v6_apply, val_main_v5_apply, idx56, v4_at]

/-- The shifted exponentials. -/
theorem v8_at (b : Fin 4) (s : Fin 4096) (j : Fin 64) :
    val_main_v8 (F := Ideal) x0 x1 x2 (ix3 b s j) = expd (sc x0 x1 x2 b s) j := by
  rw [val_main_v8_apply, val_main_v7_apply, v1_at', v6_at]
  rfl

theorem idx9 (b : Fin 4) (s : Fin 4096) (k : Fin 64) : idx_main_v9 (ix2 b s) k = ix3 b s k :=
  funext fun a => by match a with | ⟨0, _⟩ => rfl | ⟨1, _⟩ => rfl | ⟨2, _⟩ => rfl

/-- Their sum, from the zero word. -/
theorem v9_at (b : Fin 4) (s : Fin 4096) :
    val_main_v9 (F := Ideal) x0 x1 x2 (ix2 b s) = ∑ k : Fin 64, expd (sc x0 x1 x2 b s) k := by
  rw [val_main_v9_apply]
  simp only [idx9, v8_at]
  show Ideal.ofBits .f32 0x00000000#32 + _ = _
  rw [Ideal.ofBits_zero_f32, zero_add]

theorem idx1011 (b : Fin 4) (s : Fin 4096) (j : Fin 64) : idx_main_v10 (idx_main_v11 (ix3 b s j)) = ix2 b s :=
  funext fun a => by match a with | ⟨0, _⟩ => rfl | ⟨1, _⟩ => rfl

/-- The softmax weights. -/
theorem v12_at (b : Fin 4) (s : Fin 4096) (j : Fin 64) :
    val_main_v12 (F := Ideal) x0 x1 x2 (ix3 b s j) = weight (sc x0 x1 x2 b s) j := by
  rw [val_main_v12_apply, val_main_v11_apply, val_main_v10_apply, idx1011, v8_at, v9_at]
  rfl

/-- The retrieved row. -/
theorem v13_at (b : Fin 4) (s : Fin 4096) (h : Fin 128) :
    val_main_v13 (F := Ideal) x0 x1 x2 (ix3 b s h) = retr (weight (sc x0 x1 x2 b s)) (wM x1) h := by
  rw [val_main_v13_apply]
  simp only [lidx13, ridx13, v12_at]
  rfl

/-- The joined array `[projection | retrieved]`: its first 128 columns are the projection, -/
theorem v14_lo (b : Fin 4) (s : Fin 4096) (h : Fin 128) :
    val_main_v14 (F := Ideal) x0 x1 x2 (ix3 b s (lo h)) = proj (xrow x0 b s) (wA x2) h := by
  unfold val_main_v14
  rw [concatenate_pair_apply_left (2 : Fin S4x4096x256.rank) _ _ concatenates_S4x4096x128_S4x4096x128_S4x4096x256_d2
    (ix3 b s (lo h)) rfl (ix3 b s h) (fun a => by match a with | ⟨0, _⟩ => rfl | ⟨1, _⟩ => rfl | ⟨2, _⟩ => rfl)]
  exact v0_at x0 x2 b s h

/-- and its last 128 the retrieved row. -/
theorem v14_hi (b : Fin 4) (s : Fin 4096) (h : Fin 128) :
    val_main_v14 (F := Ideal) x0 x1 x2 (ix3 b s (hi h)) = retr (weight (sc x0 x1 x2 b s)) (wM x1) h := by
  unfold val_main_v14
  rw [concatenate_pair_apply_right (2 : Fin S4x4096x256.rank) _ _ concatenates_S4x4096x128_S4x4096x128_S4x4096x256_d2
    (ix3 b s (hi h)) rfl rfl (ix3 b s h)
    (fun a ha => by
      match a with
      | ⟨0, _⟩ => rfl
      | ⟨1, _⟩ => rfl
      | ⟨2, _⟩ => exact absurd rfl ha)
    (by show h.val + 128 = 128 + h.val; omega)]
  exact v13_at x0 x1 x2 b s h

/-- The output contraction over the 256 joined columns, split into its two halves. -/
theorem v15_at (b : Fin 4) (s : Fin 4096) (q : Fin 128) :
    val_main_v15 (F := Ideal) x0 x1 x2 x3 (ix3 b s q)
      = ∑ h : Fin 128, proj (xrow x0 b s) (wA x2) h * wC1 x3 h q
        + ∑ h : Fin 128, retr (weight (sc x0 x1 x2 b s)) (wM x1) h * wC2 x3 h q := by
  rw [val_main_v15_apply]
  simp only [lidx15, ridx15]
  rw [sum_halves]
  simp only [v14_lo, v14_hi]
  rfl

theorem idx1617 (b : Fin 4) (s : Fin 4096) (q : Fin 128) : idx_main_v16 (idx_main_v17 (ix3 b s q)) = ix1 q :=
  funext fun a => by match a with | ⟨0, _⟩ => rfl

/-- THE REFERENCE AT AN ENTRY: the head's row function of row `(b, s)`. -/
theorem v18_at (b : Fin 4) (s : Fin 4096) (q : Fin 128) :
    val_main_v18 (F := Ideal) x0 x1 x2 x3 x4 (ix3 b s q)
      = row (xrow x0 b s) (wA x2) (wB x1) (wM x1) (wC1 x3) (wC2 x3) (wb x4) q := by
  rw [val_main_v18_apply, v15_at, val_main_v17_apply, val_main_v16_apply, idx1617]
  rfl

/-- The reference's whole result is the head over the argument arrays. -/
theorem ref_eq : val_main_v18 (F := Ideal) x0 x1 x2 x3 x4 = headArr x0 x1 x2 x3 x4 := by
  funext i
  rw [eq_ix3 i]
  exact v18_at x0 x1 x2 x3 x4 _ _ _

end Cert.MemoryHead.Ref

end
-- ==== Proof.lean ====
/-
  A retrieval head over a memory bank: the Pallas kernel against its jnp reference, on the extended reals.

  Both programs compute, for every row `(b, s)` of the input `x : [4, 4096, 2048]`, the projection
  `xp = x · W_projᵀ` (128 entries), the scores `xp · memᵀ` against the 64 memory rows, their softmax taken with the row's
  maximum subtracted, the retrieved row `softmax · mem`, and the output `[xp | retrieved] · W_outᵀ + b`. The kernel
  works on the 16384 rows `4096 b + s` in 16 blocks of 1024, with every weight array transposed beforehand so that each
  product contracts the left operand's columns with the right operand's rows, and forms the last product as two products
  with the two halves of `W_out`'s columns added together; the reference contracts the last axes of its operands directly
  and joins projection and retrieved row into 256 columns first. On the extended reals a change of float format is the
  identity and every product is the plain sum over the shared axis, so the two differ only in how one finite sum is
  grouped — the sum over 256 joined columns against the sum of its two halves — and in one maximum with minus infinity of
  a maximum already folded from minus infinity. Neither needs the inputs to be finite: addition on the extended reals is
  commutative and associative, and nothing is cancelled or distributed.

  The frames are the generated ones (the reference's is its generated run with the result dropped); the idealization
  rewrote nothing, so `preserves` is `True`; `algebraic` posts both runs at one function of the argument arrays
  (`Cert.MemoryHead.headArr`): the kernel program's result buffer ends there (Proof/KernelArray.lean, over the body read
  at an entry in Proof/Payload.lean), and so does the reference's (Proof/RefRow.lean).
-/
import proofs.«125624_j19258633356050_2_alg».proof.Defs
import proofs.«125624_j19258633356050_2_alg».proof.Proof.Gen.Kernel
import proofs.«125624_j19258633356050_2_alg».proof.Proof.Gen.Kernel.Skeleton
import proofs.«125624_j19258633356050_2_alg».proof.Proof.Gen.Kernel.Launch
import proofs.«125624_j19258633356050_2_alg».proof.Proof.Gen.Kernel.Points
import proofs.«125624_j19258633356050_2_alg».proof.Proof.Gen.Kernel.Frame
import proofs.«125624_j19258633356050_2_alg».proof.Proof.Gen.KernelIdeal
import proofs.«125624_j19258633356050_2_alg».proof.Proof.Gen.KernelIdeal.Skeleton
import proofs.«125624_j19258633356050_2_alg».proof.Proof.Gen.KernelIdeal.Launch
import proofs.«125624_j19258633356050_2_alg».proof.Proof.Gen.KernelIdeal.Points
import proofs.«125624_j19258633356050_2_alg».proof.Proof.Gen.KernelIdeal.Frame
import proofs.«125624_j19258633356050_2_alg».proof.Proof.Gen.ReferenceIdeal
import proofs.«125624_j19258633356050_2_alg».proof.Proof.Gen.ReferenceIdeal.Run
import proofs.«125624_j19258633356050_2_alg».proof.Proof.Gen.ReferenceIdeal.Read
import proofs.«125624_j19258633356050_2_alg».proof.Proof.Gen.Pre_finite_inputs
import proofs.«125624_j19258633356050_2_alg».proof.Proof.KernelArray
import proofs.«125624_j19258633356050_2_alg».proof.Proof.RefRow
import Idealize.ShloMosaic.Adequacy
import Idealize.ShloMosaic.Init

noncomputable section

namespace Cert.Proof

open Idealize.ShloMosaic Idealize.SL.Sem

/-- The kernel program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with the result's value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments, both programs end with their result at the head over those
    arguments. -/
theorem algebraic : Cert.algebraic_KernelIdeal_ReferenceIdeal := by
  intro m ρ m' ρ' _ hagree
  refine ⟨fun c => Cert.MemoryHead.headArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.MemoryHead.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.MemoryHead.Ref.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
